-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : IVec S16384x4096 32) (main_arg2 : FVec F S16384 .f32) (main_arg3 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4x2048x4096 : Shape := ⟨3, ![4, 2048, 4096]⟩
abbrev S16384x4096 : Shape := ⟨2, ![16384, 4096]⟩
abbrev S16384 : Shape := ⟨1, ![16384]⟩
abbrev S8192x4096 : Shape := ⟨2, ![8192, 4096]⟩
abbrev S16384x1 : Shape := ⟨2, ![16384, 1]⟩
abbrev S1x16384 : Shape := ⟨2, ![1, 16384]⟩
abbrev S8192x16384 : Shape := ⟨2, ![8192, 16384]⟩
abbrev S512x1024 : Shape := ⟨2, ![512, 1024]⟩
abbrev S1024x1024 : Shape := ⟨2, ![1024, 1024]⟩
abbrev S1024x1 : Shape := ⟨2, ![1024, 1]⟩
abbrev S1x1024 : Shape := ⟨2, ![1, 1024]⟩
abbrev S4x2048x16384 : Shape := ⟨3, ![4, 2048, 16384]⟩

abbrev nBuf : Space → Nat
  | .hbm => 9
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384, .f32⟩
  | .hbm, ⟨3, _⟩ => ⟨S16384, .f32⟩
  | .hbm, ⟨4, _⟩ => ⟨S8192x4096, .f32⟩
  | .hbm, ⟨5, _⟩ => ⟨S16384x1, .f32⟩
  | .hbm, ⟨6, _⟩ => ⟨S1x16384, .f32⟩
  | .hbm, ⟨7, _⟩ => ⟨S8192x16384, .f32⟩
  | .hbm, ⟨8, _⟩ => ⟨S4x2048x16384, .f32⟩
  | .local _ .vmem, ⟨0, _⟩ => ⟨S512x1024, .f32⟩
  | .local _ .vmem, ⟨1, _⟩ => ⟨S512x1024, .f32⟩
  | .local _ .vmem, ⟨2, _⟩ => ⟨S1024x1024, .i32⟩
  | .local _ .vmem, ⟨3, _⟩ => ⟨S1024x1024, .i32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 16, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  shapeCasts_S16384_S16384x1 : S16384.ShapeCasts S16384x1
  shapeCasts_S16384_S1x16384 : S16384.ShapeCasts S1x16384
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x16384_S4x2048x16384 : S8192x16384.ShapeCasts S4x2048x16384
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x4096.size a
  hwx0_1 : ∀ i : grid0.Coords, EltTy.bits .i32 = 32 ∨ (Rect.block (s := S16384x4096) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x16384.size a
  hwx0_4 : ∀ i : grid0.Coords, EltTy.bits .f32 = 32 ∨ (Rect.block (s := S8192x16384) S512x1024.size (cc0_transform_4 i) (hinb0_4 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S16384 : Shape := ⟨1, ![16384]⟩
abbrev S16384x1 : Shape := ⟨2, ![16384, 1]⟩
abbrev S4x2048x16384 : Shape := ⟨3, ![4, 2048, 16384]⟩
abbrev S1x1x16384 : Shape := ⟨3, ![1, 1, 16384]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384, .f32⟩
  | .hbm, ⟨3, _⟩ => ⟨S16384, .f32⟩
  | .hbm, ⟨4, _⟩ => ⟨S16384x4096, .f32⟩
  | .hbm, ⟨5, _⟩ => ⟨S16384x1, .f32⟩
  | .hbm, ⟨6, _⟩ => ⟨S16384x4096, .f32⟩
  | .hbm, ⟨7, _⟩ => ⟨S16384x4096, .f32⟩
  | .hbm, ⟨8, _⟩ => ⟨S4x2048x16384, .f32⟩
  | .hbm, ⟨9, _⟩ => ⟨S1x1x16384, .f32⟩
  | .hbm, ⟨10, _⟩ => ⟨S4x2048x16384, .f32⟩
  | .hbm, ⟨11, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.LibBlocks.lean ====
/-
  A sum over rows grouped into equal consecutive blocks: summing each block and then the block sums is the sum
  over all rows, in any commutative monoid (no finiteness is involved: the regrouping of a finite sum).
-/
import Mathlib.Algebra.BigOperators.Fin
import Mathlib.Logic.Equiv.Fin.Basic
import Mathlib.Tactic

namespace Cert.LibBlocks

/-- Row `q` of block `t`, when `B` blocks of `T` rows make up `R` rows. -/
def blockRow {B T R : ℕ} (h : B * T = R) (t : Fin B) (q : Fin T) : Fin R :=
  ⟨t.val * T + q.val, by
    have ht := t.isLt
    have hq := q.isLt
    calc t.val * T + q.val < t.val * T + T := by omega
      _ = (t.val + 1) * T := by ring
      _ ≤ B * T := Nat.mul_le_mul_right T ht
      _ = R := h⟩

theorem blockRow_val {B T R : ℕ} (h : B * T = R) (t : Fin B) (q : Fin T) : (blockRow h t q).val = t.val * T + q.val := rfl

/-- The block sums add up to the whole sum. -/
theorem sum_blocks {M : Type*} [AddCommMonoid M] {B T R : ℕ} (h : B * T = R) (f : Fin R → M) :
    ∑ t : Fin B, ∑ q : Fin T, f (blockRow h t q) = ∑ r : Fin R, f r := by
  subst h
  rw [← Equiv.sum_comp finProdFinEquiv f, Fintype.sum_prod_type]
  refine Finset.sum_congr rfl fun t _ => Finset.sum_congr rfl fun q _ => ?_
  congr 1
  apply Fin.ext
  simp only [blockRow_val, finProdFinEquiv_apply_val]
  ring

end Cert.LibBlocks
-- ==== Proof.Arith.lean ====
/-
  The arithmetic of a linear layer with integer weights scaled per output row, over the extended reals.

  One output entry is  (Σ_i x i · (w i · s)) + b  for a row x of 4096 inputs, a row w of 4096 integer weights, the
  output row's scale s and its bias b.  Cutting the 4096 inputs into four consecutive blocks of 1024 and adding the
  block sums one after the other onto a zero gives the same number: only commutativity and associativity of + are
  used, so nothing here asks the entries to be finite.
-/
import Mathlib.Data.EReal.Basic
import proofs.«167299_j24206435680470_1_alg».proof.Proof.LibBlocks

noncomputable section

namespace Cert.ScaledLinear

open Cert.LibBlocks

/-- Input i's contribution: the input times the dequantized weight (the signed integer times the row's scale). -/
def term (x : Fin 4096 → EReal) (w : Fin 4096 → BitVec 32) (s : EReal) (i : Fin 4096) : EReal :=
  x i * ((((w i).toInt : ℝ) : EReal) * s)

/-- The whole contraction over the 4096 inputs. -/
def whole (x : Fin 4096 → EReal) (w : Fin 4096 → BitVec 32) (s : EReal) : EReal :=
  ∑ i : Fin 4096, term x w s i

theorem blocks_eq : 4 * 1024 = 4096 := by norm_num

/-- The contraction over block k alone: inputs 1024·k … 1024·k + 1023. -/
def blockSum (x : Fin 4096 → EReal) (w : Fin 4096 → BitVec 32) (s : EReal) (k : Fin 4) : EReal :=
  ∑ q : Fin 1024, term x w s (blockRow blocks_eq k q)

/-- Block k's sum with k a natural number: zero past the fourth block. -/
def blockSumN (x : Fin 4096 → EReal) (w : Fin 4096 → BitVec 32) (s : EReal) (k : ℕ) : EReal :=
  if h : k < 4 then blockSum x w s ⟨k, h⟩ else 0

/-- The sum of the first n block sums. -/
def partialSum (x : Fin 4096 → EReal) (w : Fin 4096 → BitVec 32) (s : EReal) (n : ℕ) : EReal :=
  ∑ k ∈ Finset.range n, blockSumN x w s k

theorem partialSum_zero (x : Fin 4096 → EReal) (w : Fin 4096 → BitVec 32) (s : EReal) : partialSum x w s 0 = 0 := by
  unfold partialSum; rw [Finset.sum_range_zero]

theorem partialSum_succ (x : Fin 4096 → EReal) (w : Fin 4096 → BitVec 32) (s : EReal) (n : ℕ) :
    partialSum x w s (n + 1) = partialSum x w s n + blockSumN x w s n := by
  unfold partialSum
  rw [Finset.sum_range_succ]

/-- The first block sum alone. -/
theorem partialSum_one (x : Fin 4096 → EReal) (w : Fin 4096 → BitVec 32) (s : EReal) :
    partialSum x w s 1 = blockSumN x w s 0 := by
  rw [partialSum_succ, partialSum_zero, zero_add]

/-- Block k's sum for k below four, spelled over the block's 1024 inputs. -/
theorem blockSumN_eq (x : Fin 4096 → EReal) (w : Fin 4096 → BitVec 32) (s : EReal) (k : ℕ) (h : k < 4) :
    blockSumN x w s k = ∑ q : Fin 1024, x (blockRow blocks_eq ⟨k, h⟩ q) * ((((w (blockRow blocks_eq ⟨k, h⟩ q)).toInt : ℝ) : EReal) * s) := by
  unfold blockSumN
  rw [dif_pos h]
  rfl

/-- All four block sums make the whole contraction. -/
theorem partialSum_four (x : Fin 4096 → EReal) (w : Fin 4096 → BitVec 32) (s : EReal) : partialSum x w s 4 = whole x w s := by
  unfold partialSum whole
  rw [Finset.sum_range]
  rw [← sum_blocks blocks_eq (term x w s)]
  refine Finset.sum_congr rfl fun k _ => ?_
  unfold blockSumN
  rw [dif_pos k.isLt]
  rfl

end Cert.ScaledLinear

end
-- ==== Proof.Layer.lean ====
/-
  The layer as one function of the four argument arrays: entry (b, s, o) of the result is the contraction of x (b, s, ·)
  against the integer weights of row o, each weight scaled by the row's scale, plus the row's bias.
-/
import proofs.«167299_j24206435680470_1_alg».proof.Proof.Arith
import Idealize.ShloMosaic.Lib.ValueIdx

noncomputable section

namespace Cert.ScaledLinear

open Idealize.ShloMosaic Idealize.ShloMosaic.ValueIdx

/-- x · (diag(scale) · w)ᵀ + bias, entry by entry. -/
def layer (x : (⟨3, ![4, 2048, 4096]⟩ : Shape).Idx → EReal) (wq : (⟨2, ![16384, 4096]⟩ : Shape).Idx → BitVec 32)
    (sc bias : (⟨1, ![16384]⟩ : Shape).Idx → EReal) : (⟨3, ![4, 2048, 16384]⟩ : Shape).Idx → EReal :=
  fun j => whole (fun i => x (ix3 (j 0) (j 1) i)) (fun i => wq (ix2 (j 2) i)) (sc (ix1 (j 2))) + bias (ix1 (j 2))

end Cert.ScaledLinear

end
-- ==== Proof.RefValue.lean ====
/-
  The reference's result is the layer function of its arguments.

  Its program converts the integer weights, broadcasts the scale along each weight row and multiplies, contracts x's last
  axis against the weights' last axis, and adds the bias broadcast over the leading axes: read at an entry (b, s, o) that
  is Σ_i x (b, s, i) · (w (o, i) · scale o) + bias o.
-/
import proofs.«167299_j24206435680470_1_alg».proof.Proof.Gen.ReferenceIdeal.Read
import proofs.«167299_j24206435680470_1_alg».proof.Proof.Layer

noncomputable section

namespace Cert.ReferenceIdeal.RefValue

open Cert.ReferenceIdeal Cert.ReferenceIdeal.Gen Cert.ReferenceIdeal.Read Idealize.ShloMosaic Idealize.ShloMosaic.ValueIdx
open Cert.ScaledLinear

theorem result_eq (x0 : (⟨S4x2048x4096, .f32⟩ : BufTy).Contents (Elt Ideal)) (x1 : (⟨S16384x4096, .i32⟩ : BufTy).Contents (Elt Ideal))
    (x2 x3 : (⟨S16384, .f32⟩ : BufTy).Contents (Elt Ideal)) :
    val_main_v7 (F := Ideal) x0 x1 x2 x3 = layer x0 x1 x2 x3 := by
  funext j
  rw [val_main_v7_apply, val_main_v4_apply, val_main_v6_apply, val_main_v5_apply]
  have eb : idx_main_v5 (idx_main_v6 j) = ix1 (j 2) := funext fun a => by match a with | ⟨0, _⟩ => rfl
  rw [eb]
  unfold layer whole
  show (∑ k : Fin 4096, x0 (lidx_main_v4 j k) * val_main_v3 (F := Ideal) x1 x2 (ridx_main_v4 j k)) + x3 (ix1 (j 2)) = _
  refine congrArg (· + x3 (ix1 (j 2))) (Finset.sum_congr rfl fun k _ => ?_)
  rw [val_main_v3_apply, val_main_v0_apply, val_main_v2_apply, val_main_v1_apply]
  have el : lidx_main_v4 j k = ix3 (j 0) (j 1) k := funext fun a => by
    match a with
    | ⟨0, _⟩ => rfl
    | ⟨1, _⟩ => rfl
    | ⟨2, _⟩ => rfl
  have er : ridx_main_v4 j k = ix2 (j 2) k := funext fun a => by
    match a with
    | ⟨0, _⟩ => rfl
    | ⟨1, _⟩ => rfl
  have es : idx_main_v1 (idx_main_v2 (ridx_main_v4 j k)) = ix1 (j 2) := funext fun a => by match a with | ⟨0, _⟩ => rfl
  rw [es, el, er]
  rfl

end Cert.ReferenceIdeal.RefValue

end
-- ==== Proof.Pieces.lean ====
/-
  What one run of the body leaves in the accumulator and in the output block, as the stored values.

  At a first block (the contraction axis at 0) the body stores zero into the accumulator, reads it back and stores the
  update of that zero; at a middle block it stores the update of what the point before left; at a last block it does the
  same and then stores, into the output block, the sum of the accumulator it has just written and the bias row.
-/
import proofs.«167299_j24206435680470_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- First block: the accumulator ends at the update of the zero just stored. -/
theorem scratch_A (c : Dev nD) (i : grid0.Coords) (arg3 : Memref sig .tc .vmem S512x1024 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : cond0_0 i) (hc1 : ¬cond0_1 i) (x0 : Vec F S512x1024 .f32) (x1 : Vec F S1024x1024 .i32) (x2 : Vec F S1024x1 .f32) (x3 : Vec F S1x1024 .f32) :
    sout0_A_0 c i arg3 harg3 arg4 harg4 arg5 harg5 arg6 harg6 arg7 harg7 arg8 harg8 hc0 hc1 x0 x1 x2 x3 = k0_pay2 x0 x1 x2 k0_pay1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S512x1024) hz, View.readCov_unit_zero (S := S512x1024) _ hz]
  simp only [View.readAt_eq_ld, harg3.read_unread, harg4.read_unread, harg5.read_unread, harg6.read_unread, harg8.read_unread, View.ld_unit_zero (S := S512x1024) hz, View.ld_unit_zero (S := S1024x1024) hz, View.ld_unit_zero (S := S1024x1) hz, View.ld_unit_zero (S := S1x1024) hz]

/-- Middle block: the accumulator ends at the update of what the point before left. -/
theorem scratch_B (c : Dev nD) (i : grid0.Coords) (arg3 : Memref sig .tc .vmem S512x1024 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : ¬cond0_1 i) (x0 : Vec F S512x1024 .f32) (x1 : Vec F S1024x1024 .i32) (x2 : Vec F S1024x1 .f32) (x3 : Vec F S1x1024 .f32) (xs0 : Vec F S512x1024 .f32) :
    sout0_B_0 c i arg3 harg3 arg4 harg4 arg5 harg5 arg6 harg6 arg7 harg7 arg8 harg8 hc0 hc1 x0 x1 x2 x3 xs0 = k0_pay2 x0 x1 x2 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  rw [View.canon_unit_zero hz]
  simp only [View.readAt_eq_ld, harg3.read_unread, harg4.read_unread, harg5.read_unread, harg6.read_unread, harg8.read_unread, View.ld_unit_zero (S := S512x1024) hz, View.ld_unit_zero (S := S1024x1024) hz, View.ld_unit_zero (S := S1024x1) hz, View.ld_unit_zero (S := S1x1024) hz]

/-- Last block: the accumulator likewise, -/
theorem scratch_C (c : Dev nD) (i : grid0.Coords) (arg3 : Memref sig .tc .vmem S512x1024 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i) (x0 : Vec F S512x1024 .f32) (x1 : Vec F S1024x1024 .i32) (x2 : Vec F S1024x1 .f32) (x3 : Vec F S1x1024 .f32) (xs0 : Vec F S512x1024 .f32) :
    sout0_C_0 c i arg3 harg3 arg4 harg4 arg5 harg5 arg6 harg6 arg7 harg7 arg8 harg8 hc0 hc1 x0 x1 x2 x3 xs0 = k0_pay2 x0 x1 x2 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg6.read_unread, harg8.read_unread, View.ld_unit_zero (S := S512x1024) hz, View.ld_unit_zero (S := S1024x1024) hz, View.ld_unit_zero (S := S1024x1) hz, View.ld_unit_zero (S := S1x1024) hz]

/-- and the output block ends at that accumulator plus the bias row. -/
theorem out_C (c : Dev nD) (i : grid0.Coords) (arg3 : Memref sig .tc .vmem S512x1024 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i) (x0 : Vec F S512x1024 .f32) (x1 : Vec F S1024x1024 .i32) (x2 : Vec F S1024x1 .f32) (x3 : Vec F S1x1024 .f32) (xs0 : Vec F S512x1024 .f32) :
    out0_C_4 c i arg3 harg3 arg4 harg4 arg5 harg5 arg6 harg6 arg7 harg7 arg8 harg8 hc0 hc1 x0 x1 x2 x3 xs0 = k0_pay3 (k0_pay2 x0 x1 x2 xs0) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz, View.readCov_unit_zero (S := S512x1024) _ hz]
  simp only [View.readAt_eq_ld, harg3.read_unread, harg4.read_unread, harg5.read_unread, harg6.read_unread, harg8.read_unread, View.ld_unit_zero (S := S512x1024) hz, View.ld_unit_zero (S := S1024x1024) hz, View.ld_unit_zero (S := S1024x1) hz, View.ld_unit_zero (S := S1x1024) hz]

end Cert.KernelIdeal.Pieces

end
-- ==== Proof.Payload.lean ====
/-
  The three vector values the kernel body stores, read at an entry (p, q), at the ideal values.

  The accumulator update stores  acc + x · (w ⊙ s)ᵀ : entry (p, q) is acc (p, q) plus the sum over the 1024 columns c of
  the block of x (p, c) · (w (q, c) · s (q)), where w (q, c) is the integer weight read signed and s (q) the scale of
  weight row q, a column vector broadcast along the row; both format changes are the identity.  The reset stores zero.
  The last value stored adds the bias row, broadcast down the columns, to the accumulator.
-/
import proofs.«167299_j24206435680470_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-! ## The matrix product's index arithmetic: both operands are contracted along their axis 1 -/

theorem lhs_axis0 (j : S512x1024.Idx) (k : dot_S512x1024_S1024x1024_S512x1024_1_1_0_0_n_n.contr.Idx) :
    (dot_S512x1024_S1024x1024_S512x1024_1_1_0_0_n_n.lhsIdx j k 0).val = (j 0).val := by
  unfold DotDims.lhsIdx
  rw [dif_neg (show ¬(0 : Fin S512x1024.rank) ∈ dot_S512x1024_S1024x1024_S512x1024_1_1_0_0_n_n.lhsBatch by decide),
    dif_pos (show (0 : Fin S512x1024.rank) ∈ dot_S512x1024_S1024x1024_S512x1024_1_1_0_0_n_n.lhsNonContracting by decide)]
  rfl

theorem lhs_axis1 (j : S512x1024.Idx) (k : dot_S512x1024_S1024x1024_S512x1024_1_1_0_0_n_n.contr.Idx) :
    (dot_S512x1024_S1024x1024_S512x1024_1_1_0_0_n_n.lhsIdx j k 1).val = (k ⟨0, by decide⟩).val :=
  dot_S512x1024_S1024x1024_S512x1024_1_1_0_0_n_n.lhsIdx_val_of_single rfl j k

theorem rhs_axis0 (j : S512x1024.Idx) (k : dot_S512x1024_S1024x1024_S512x1024_1_1_0_0_n_n.contr.Idx) :
    (dot_S512x1024_S1024x1024_S512x1024_1_1_0_0_n_n.rhsIdx j k 0).val = (j 1).val := by
  unfold DotDims.rhsIdx
  rw [dif_neg (show ¬(0 : Fin S1024x1024.rank) ∈ dot_S512x1024_S1024x1024_S512x1024_1_1_0_0_n_n.rhsBatch by decide),
    dif_pos (show (0 : Fin S1024x1024.rank) ∈ dot_S512x1024_S1024x1024_S512x1024_1_1_0_0_n_n.rhsNonContracting by decide)]
  rfl

theorem rhs_axis1 (j : S512x1024.Idx) (k : dot_S512x1024_S1024x1024_S512x1024_1_1_0_0_n_n.contr.Idx) :
    (dot_S512x1024_S1024x1024_S512x1024_1_1_0_0_n_n.rhsIdx j k 1).val = (k ⟨0, by decide⟩).val :=
  dot_S512x1024_S1024x1024_S512x1024_1_1_0_0_n_n.rhsIdx_val_of_single rfl j k

/-- The product into a zero accumulator at entry (p, q): row p of the left operand against ROW q of the right one. -/
theorem product_apply (lhs : FVec Ideal S512x1024 .bf16) (rhs : FVec Ideal S1024x1024 .bf16) (p : Fin 512) (q : Fin 1024) :
    matmul dot_S512x1024_S1024x1024_S512x1024_1_1_0_0_n_n none lhs rhs (constant (F := Ideal) S512x1024 .f32 0x00000000#32) (ix2 p q)
      = ∑ c : Fin 1024, lhs (ix2 p c) * rhs (ix2 q c) := by
  simp only [matmul]
  rw [Ideal.matmul_constant_zero_apply,
    ← Equiv.sum_comp (contrEquiv1 dot_S512x1024_S1024x1024_S512x1024_1_1_0_0_n_n 1024 rfl rfl).symm]
  refine Finset.sum_congr rfl fun c _ => ?_
  have hc := contrEquiv1_symm_val dot_S512x1024_S1024x1024_S512x1024_1_1_0_0_n_n 1024 rfl rfl c
  have el : dot_S512x1024_S1024x1024_S512x1024_1_1_0_0_n_n.lhsIdx (ix2 p q)
      ((contrEquiv1 dot_S512x1024_S1024x1024_S512x1024_1_1_0_0_n_n 1024 rfl rfl).symm c) = ix2 p c :=
    funext fun a => Fin.ext (by
      match a with
      | ⟨0, _⟩ => exact lhs_axis0 _ _
      | ⟨1, _⟩ => exact (lhs_axis1 _ _).trans hc)
  have er : dot_S512x1024_S1024x1024_S512x1024_1_1_0_0_n_n.rhsIdx (ix2 p q)
      ((contrEquiv1 dot_S512x1024_S1024x1024_S512x1024_1_1_0_0_n_n 1024 rfl rfl).symm c) = ix2 q c :=
    funext fun a => Fin.ext (by
      match a with
      | ⟨0, _⟩ => exact rhs_axis0 _ _
      | ⟨1, _⟩ => exact (rhs_axis1 _ _).trans hc)
  rw [el, er]

/-- A column vector broadcast along the rows, at (q, c): its entry (q, 0). -/
theorem column_broadcast_apply (v : FVec Ideal S1024x1 .bf16) (q c : Fin 1024) :
    broadcastTo S1024x1024 v broadcasts_S1024x1_S1024x1024 (ix2 q c) = v (ix2 q 0) :=
  broadcastTo_apply v broadcasts_S1024x1_S1024x1024 (ix2 q c) (ix2 q 0) fun a => by
    match a with
    | ⟨0, _⟩ => show q.val = if (1024 : Nat) = 1 then 0 else q.val; rw [if_neg (by decide)]
    | ⟨1, _⟩ => show 0 = if (1 : Nat) = 1 then 0 else c.val; rw [if_pos rfl]

/-- A row vector broadcast down the columns, at (p, q): its entry (0, q). -/
theorem row_broadcast_apply (v : FVec Ideal S1x1024 .f32) (p : Fin 512) (q : Fin 1024) :
    broadcastTo S512x1024 v broadcasts_S1x1024_S512x1024 (ix2 p q) = v (ix2 0 q) :=
  broadcastTo_apply v broadcasts_S1x1024_S512x1024 (ix2 p q) (ix2 0 q) fun a => by
    match a with
    | ⟨0, _⟩ => show 0 = if (1 : Nat) = 1 then 0 else p.val; rw [if_pos rfl]
    | ⟨1, _⟩ => show q.val = if (1024 : Nat) = 1 then 0 else q.val; rw [if_neg (by decide)]

/-! ## The stored values at an entry -/

/-- The reset value is zero everywhere. -/
theorem reset_apply (j : S512x1024.Idx) : k0_pay1 (F := Ideal) j = 0 := by
  unfold k0_pay1
  rw [shapeCast_self]
  show Ideal.ofBits .f32 0x00000000#32 = 0
  exact Ideal.ofBits_zero_f32

/-- The accumulator update at entry (p, q). -/
theorem update_apply (x : Vec Ideal S512x1024 .f32) (w : Vec Ideal S1024x1024 .i32) (s : Vec Ideal S1024x1 .f32)
    (acc : Vec Ideal S512x1024 .f32) (p : Fin 512) (q : Fin 1024) :
    k0_pay2 (F := Ideal) x w s acc (ix2 p q)
      = acc (ix2 p q) + ∑ c : Fin 1024, x (ix2 p c) * ((((w (ix2 q c)).toInt : ℝ) : EReal) * s (ix2 q 0)) := by
  unfold k0_pay2
  rw [shapeCast_self, shapeCast_self, shapeCast_self, addf_apply, product_apply]
  refine congrArg (acc (ix2 p q) + ·) (Finset.sum_congr rfl fun c _ => ?_)
  rw [truncf_apply, mulf_apply, column_broadcast_apply, truncf_apply, sitofp_apply]
  rfl

/-- The value written to the output block at entry (p, q): the accumulator plus the bias of column q. -/
theorem final_apply (acc : Vec Ideal S512x1024 .f32) (b : Vec Ideal S1x1024 .f32) (p : Fin 512) (q : Fin 1024) :
    k0_pay3 (F := Ideal) acc b (ix2 p q) = acc (ix2 p q) + b (ix2 0 q) := by
  unfold k0_pay3
  rw [shapeCast_self, addf_apply, row_broadcast_apply]

end Cert.KernelIdeal.Payload

end
-- ==== Proof.Blocks.lean ====
/-
  Where the pipeline's blocks sit in their arrays.

  The grid has 16 · 16 · 4 points; point t has coordinates (t / 64, t / 4 mod 16, t mod 4), the last moving fastest.
  At point t the block of x is rows 512·(t/64) … of columns 1024·(t mod 4) …; the block of the integer weights is rows
  1024·(t/4 mod 16) … of the same columns; the scale block is those weight rows of the one column; the bias block is
  the matching stretch of the one row; the output block is rows 512·(t/64) …, columns 1024·(t/4 mod 16) ….
  With these, the contraction the body performs at point t over its 1024 block columns is block (t mod 4) of the
  contraction of a row of x against a row of the weights.
-/
import proofs.«167299_j24206435680470_1_alg».proof.Proof.Gen.KernelIdeal.Frame
import proofs.«167299_j24206435680470_1_alg».proof.Proof.Arith
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx
open Idealize.SL.Sem Cert.LibBlocks Cert.ScaledLinear

variable (m : (ℓ : Loc nD τ sig) → Buf (Elt Ideal) ℓ)

/-- The printed index maps, decided over the grid's 1024 points. -/
theorem index_facts : ∀ t : Fin cfg0.N,
    win0_0.index t (0 : Fin 2) = t.val / 64 ∧ win0_0.index t (1 : Fin 2) = t.val % 4
    ∧ win0_1.index t (0 : Fin 2) = t.val / 4 % 16 ∧ win0_1.index t (1 : Fin 2) = t.val % 4
    ∧ win0_2.index t (0 : Fin 2) = t.val / 4 % 16 ∧ win0_2.index t (1 : Fin 2) = 0
    ∧ win0_3.index t (0 : Fin 2) = 0 ∧ win0_3.index t (1 : Fin 2) = t.val / 4 % 16
    ∧ win0_4.index t (0 : Fin 2) = t.val / 64 ∧ win0_4.index t (1 : Fin 2) = t.val / 4 % 16 :=
  (by decide +kernel : ∀ t : Fin grid0.N, _)

theorem lt_N (t : Fin cfg0.N) : t.val < 1024 := lt_of_lt_of_eq t.isLt (show cfg0.N = 1024 from N_0)

/-- The array row under row p of point t's blocks of x and of the output. -/
def rowOf (t : Fin cfg0.N) (p : Fin 512) : Fin 8192 := ⟨512 * (t.val / 64) + p.val, by have := lt_N t; omega⟩

/-- The weight row (the output column) under row q of point t's weight block. -/
def colOf (t : Fin cfg0.N) (q : Fin 1024) : Fin 16384 := ⟨1024 * (t.val / 4 % 16) + q.val, by omega⟩

/-! ## The region's arrays, by rows -/

/-- Row r of x as the region finds it. -/
def xRow (c : Dev nD) (r : Fin 8192) : Fin 4096 → EReal := fun i => (V m c main_v0 : S8192x4096.Idx → EReal) (ix2 r i)
/-- Row o of the integer weights. -/
def wRow (c : Dev nD) (o : Fin 16384) : Fin 4096 → BitVec 32 := fun i => (V m c main_arg1 : S16384x4096.Idx → BitVec 32) (ix2 o i)
/-- The scale of weight row o (a one-column array). -/
def scaleAt (c : Dev nD) (o : Fin 16384) : EReal := (V m c main_v1 : S16384x1.Idx → EReal) (ix2 o 0)
/-- The bias of output column o (a one-row array). -/
def biasAt (c : Dev nD) (o : Fin 16384) : EReal := (V m c main_v2 : S1x16384.Idx → EReal) (ix2 0 o)

/-! ## The blocks read at an entry -/

/-- Point t's blocks of x, of the integer weights, of the scale column and of the bias row. -/
def xBlk (c : Dev nD) (t : Fin cfg0.N) : Vec Ideal S512x1024 .f32 := iblk m c 0 t
def wBlk (c : Dev nD) (t : Fin cfg0.N) : Vec Ideal S1024x1024 .i32 := iblk m c 1 t
def sBlk (c : Dev nD) (t : Fin cfg0.N) : Vec Ideal S1024x1 .f32 := iblk m c 2 t
def bBlk (c : Dev nD) (t : Fin cfg0.N) : Vec Ideal S1x1024 .f32 := iblk m c 3 t

theorem x_block_apply (c : Dev nD) (t : Fin cfg0.N) (p : Fin 512) (cc : Fin 1024) :
    xBlk m c t (ix2 p cc)
      = xRow m c (rowOf t p) (blockRow blocks_eq ⟨t.val % 4, Nat.mod_lt _ (by norm_num)⟩ cc) := by
  obtain ⟨e0, e1, -⟩ := index_facts t
  unfold xBlk iblk xRow
  rw [View.read_apply]
  show V m c main_v0 _ = V m c main_v0 _
  congr 1
  funext a; apply Fin.ext
  match a with
  | ⟨0, _⟩ => show win0_0.index t (0 : Fin 2) * 512 + 1 * p.val = 512 * (t.val / 64) + p.val; rw [e0]; omega
  | ⟨1, _⟩ => show win0_0.index t (1 : Fin 2) * 1024 + 1 * cc.val = t.val % 4 * 1024 + cc.val; rw [e1]; omega

theorem w_block_apply (c : Dev nD) (t : Fin cfg0.N) (q : Fin 1024) (cc : Fin 1024) :
    wBlk m c t (ix2 q cc)
      = wRow m c (colOf t q) (blockRow blocks_eq ⟨t.val % 4, Nat.mod_lt _ (by norm_num)⟩ cc) := by
  obtain ⟨-, -, e0, e1, -⟩ := index_facts t
  unfold wBlk iblk wRow
  rw [View.read_apply]
  show V m c main_arg1 _ = V m c main_arg1 _
  congr 1
  funext a; apply Fin.ext
  match a with
  | ⟨0, _⟩ => show win0_1.index t (0 : Fin 2) * 1024 + 1 * q.val = 1024 * (t.val / 4 % 16) + q.val; rw [e0]; omega
  | ⟨1, _⟩ => show win0_1.index t (1 : Fin 2) * 1024 + 1 * cc.val = t.val % 4 * 1024 + cc.val; rw [e1]; omega

theorem scale_block_apply (c : Dev nD) (t : Fin cfg0.N) (q : Fin 1024) :
    sBlk m c t (ix2 q 0) = scaleAt m c (colOf t q) := by
  obtain ⟨-, -, -, -, e0, e1, -⟩ := index_facts t
  unfold sBlk iblk scaleAt
  rw [View.read_apply]
  show V m c main_v1 _ = V m c main_v1 _
  congr 1
  funext a; apply Fin.ext
  match a with
  | ⟨0, _⟩ => show win0_2.index t (0 : Fin 2) * 1024 + 1 * q.val = 1024 * (t.val / 4 % 16) + q.val; rw [e0]; omega
  | ⟨1, _⟩ => show win0_2.index t (1 : Fin 2) * 1 + 1 * 0 = 0; rw [e1]

theorem bias_block_apply (c : Dev nD) (t : Fin cfg0.N) (q : Fin 1024) :
    bBlk m c t (ix2 0 q) = biasAt m c (colOf t q) := by
  obtain ⟨-, -, -, -, -, -, e0, e1, -⟩ := index_facts t
  unfold bBlk iblk biasAt
  rw [View.read_apply]
  show V m c main_v2 _ = V m c main_v2 _
  congr 1
  funext a; apply Fin.ext
  match a with
  | ⟨0, _⟩ => show win0_3.index t (0 : Fin 2) * 1 + 1 * 0 = 0; rw [e0]
  | ⟨1, _⟩ => show win0_3.index t (1 : Fin 2) * 1024 + 1 * q.val = 1024 * (t.val / 4 % 16) + q.val; rw [e1]; omega

/-- The body's contraction at point t, entry (p, q), is block (t mod 4) of the contraction of row `rowOf t p` of x
    against weight row `colOf t q`. -/
theorem block_product (c : Dev nD) (t : Fin cfg0.N) (p : Fin 512) (q : Fin 1024) :
    (∑ cc : Fin 1024, xBlk m c t (ix2 p cc) * (((((wBlk m c t (ix2 q cc)).toInt : ℝ)) : EReal) * sBlk m c t (ix2 q 0)))
      = blockSumN (xRow m c (rowOf t p)) (wRow m c (colOf t q)) (scaleAt m c (colOf t q)) (t.val % 4) := by
  rw [blockSumN_eq _ _ _ _ (Nat.mod_lt _ (by norm_num))]
  refine Finset.sum_congr rfl fun cc _ => ?_
  rw [x_block_apply m c t p cc, w_block_apply m c t q cc, scale_block_apply m c t q]

end Cert.KernelIdeal.Blocks

end
-- ==== Proof.Accum.lean ====
/-
  The accumulator across the grid.

  The last grid axis runs over the four column blocks of one output block.  After the point at block k the
  accumulator's entry (p, q) is the sum of the first k + 1 block sums of the contraction of x's row against the weight
  row — by induction on the point: a first block starts from zero, every other block adds its own block sum to what
  the point before left, and the point before has the same output block.  At a last block the value written to the
  output block adds the bias, so it is the whole contraction plus the bias.
-/
import proofs.«167299_j24206435680470_1_alg».proof.Proof.Pieces
import proofs.«167299_j24206435680470_1_alg».proof.Proof.Payload
import proofs.«167299_j24206435680470_1_alg».proof.Proof.Blocks

noncomputable section

namespace Cert.KernelIdeal.Accum

open Cert.KernelIdeal Cert.KernelIdeal.Gen Idealize.ShloMosaic Idealize.ShloMosaic.TcCoe Idealize.ShloMosaic.ValueIdx
open Idealize.SL.Sem Cert.ScaledLinear Cert.KernelIdeal.Blocks

variable (m : (ℓ : Loc nD τ sig) → Buf (Elt Ideal) ℓ)

/-! ## The stored values, point by point -/

/-- After a first block the accumulator is the update of zero. -/
theorem acc_first (c : Dev nD) (t : Fin cfg0.N) (h0 : t.val % 4 = 0) :
    (outsAt0 m c t.val t.isLt).2 = k0_pay2 (F := Ideal) (xBlk m c t) (wBlk m c t) (sBlk m c t) (k0_pay1 (F := Ideal)) := by
  have h1 : ¬t.val % 4 = 3 := by omega
  rw [outsAt0_A m c t h0 h1]
  dsimp only
  exact Pieces.scratch_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- After any other block it is the update of what the point before left. -/
theorem acc_next (c : Dev nD) (t : Fin cfg0.N) (h0 : ¬t.val % 4 = 0) :
    (outsAt0 m c t.val t.isLt).2 = k0_pay2 (F := Ideal) (xBlk m c t) (wBlk m c t) (sBlk m c t)
      (outsAt0 m c (t.val - 1) (Nat.lt_of_le_of_lt (Nat.sub_le _ _) t.isLt)).2 := by
  by_cases h1 : t.val % 4 = 3
  · rw [outsAt0_C m c t h0 h1]
    dsimp only
    exact Pieces.scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
      (outsAt0 m c (t.val - 1) (Nat.lt_of_le_of_lt (Nat.sub_le _ _) t.isLt)).2
  · rw [outsAt0_B m c t h0 h1]
    dsimp only
    exact Pieces.scratch_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t)
      (outsAt0 m c (t.val - 1) (Nat.lt_of_le_of_lt (Nat.sub_le _ _) t.isLt)).2

/-- At a last block the output block is the accumulator just written plus the bias row. -/
theorem out_last (c : Dev nD) (t : Fin cfg0.N) (h1 : t.val % 4 = 3) :
    (outsAt0 m c t.val t.isLt).1 = k0_pay3 (F := Ideal) (outsAt0 m c t.val t.isLt).2 (bBlk m c t) := by
  have h0 : ¬t.val % 4 = 0 := by omega
  rw [acc_next m c t h0, outsAt0_C m c t h0 h1]
  dsimp only
  exact Pieces.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2

/-! ## Entry by entry -/

/-- The accumulator after point n: the first (n mod 4) + 1 block sums. -/
theorem acc_entry (c : Dev nD) : ∀ (n : ℕ) (hn : n < cfg0.N) (p : Fin 512) (q : Fin 1024),
    (outsAt0 m c n hn).2 (ix2 p q)
      = partialSum (xRow m c (rowOf ⟨n, hn⟩ p)) (wRow m c (colOf ⟨n, hn⟩ q)) (scaleAt m c (colOf ⟨n, hn⟩ q)) (n % 4 + 1) := by
  intro n
  induction n with
  | zero =>
    intro hn p q
    rw [show (outsAt0 m c 0 hn).2 = _ from acc_first m c ⟨0, hn⟩ rfl, Payload.update_apply, Payload.reset_apply, zero_add,
      block_product m c ⟨0, hn⟩ p q]
    exact (partialSum_one _ _ _).symm
  | succ n ih =>
    intro hn p q
    by_cases h0 : (n + 1) % 4 = 0
    · rw [show (outsAt0 m c (n + 1) hn).2 = _ from acc_first m c ⟨n + 1, hn⟩ h0, Payload.update_apply, Payload.reset_apply, zero_add,
        block_product m c ⟨n + 1, hn⟩ p q]
      show blockSumN _ _ _ ((n + 1) % 4) = _
      rw [h0]
      exact (partialSum_one _ _ _).symm
    · rw [show (outsAt0 m c (n + 1) hn).2 = _ from acc_next m c ⟨n + 1, hn⟩ h0, Payload.update_apply,
        block_product m c ⟨n + 1, hn⟩ p q]
      show (outsAt0 m c n (Nat.lt_of_succ_lt hn)).2 (ix2 p q) + blockSumN _ _ _ ((n + 1) % 4) = _
      rw [ih (Nat.lt_of_succ_lt hn) p q]
      have hN := lt_N ⟨n + 1, hn⟩
      have er : rowOf ⟨n, Nat.lt_of_succ_lt hn⟩ p = rowOf ⟨n + 1, hn⟩ p :=
        Fin.ext (by show 512 * (n / 64) + p.val = 512 * ((n + 1) / 64) + p.val; omega)
      have ec : colOf ⟨n, Nat.lt_of_succ_lt hn⟩ q = colOf ⟨n + 1, hn⟩ q :=
        Fin.ext (by show 1024 * (n / 4 % 16) + q.val = 1024 * ((n + 1) / 4 % 16) + q.val; omega)
      have ek : (n + 1) % 4 = n % 4 + 1 := by omega
      rw [er, ec, ek]
      exact (partialSum_succ _ _ _ _).symm

/-- The value a last-block point writes to the output block: the whole contraction plus the bias. -/
theorem out_entry (c : Dev nD) (t : Fin cfg0.N) (h3 : t.val % 4 = 3) (p : Fin 512) (q : Fin 1024) :
    (outsAt0 m c t.val t.isLt).1 (ix2 p q)
      = whole (xRow m c (rowOf t p)) (wRow m c (colOf t q)) (scaleAt m c (colOf t q)) + biasAt m c (colOf t q) := by
  rw [out_last m c t h3, Payload.final_apply, acc_entry m c t.val t.isLt p q, bias_block_apply m c t q, h3]
  exact congrArg (· + biasAt m c (colOf t q)) (partialSum_four _ _ _)

end Cert.KernelIdeal.Accum

end
-- ==== Proof.KernelValue.lean ====
/-
  The kernel program's result array as the layer function of its arguments.

  Every last-block point writes its output block back, and those blocks tile the [8192, 16384] array: entry (r, o) lies
  in the block of the point (r / 512, o / 1024, 3).  So the region's output array holds, at (r, o), the whole
  contraction of row r of x against weight row o, plus the bias of o.  The host operations around the region only
  re-lay arrays: x [4, 2048, 4096] is read as [8192, 4096] (row 2048·b + s is (b, s)), the scale and the bias become a
  column and a row, and the result is read back as [4, 2048, 16384].
-/
import proofs.«167299_j24206435680470_1_alg».proof.Proof.Accum
import proofs.«167299_j24206435680470_1_alg».proof.Proof.Layer
import Idealize.ShloMosaic.Lib.StableHlo.Run

noncomputable section

namespace Cert.KernelIdeal.KernelValue

open Cert.KernelIdeal Cert.KernelIdeal.Gen Idealize.ShloMosaic Idealize.ShloMosaic.TcCoe Idealize.ShloMosaic.ValueIdx
open Idealize.SL.Sem Cert.ScaledLinear Cert.KernelIdeal.Blocks Cert.KernelIdeal.Accum
open Idealize.ShloMosaic.Pipeline (Dat)

variable (m : (ℓ : Loc nD τ sig) → Buf (Elt Ideal) ℓ) (ρ : Dev nD → PrngReg)

/-! ## The region's output array -/

/-- What the region's output array ends holding. -/
def regionOut (c : Dev nD) : S8192x16384.Idx → EReal :=
  fun j => whole (xRow m c (j 0)) (wRow m c (j 1)) (scaleAt m c (j 1)) + biasAt m c (j 1)

/-- What a last-block point writes back is its block of `regionOut`. -/
theorem flushed_eq (c : Dev nD) (t : Fin cfg0.N) (hf : (cfg0.win 4).flush t = true) :
    (dats m 0 c).flushed 4 t = ((cfg0.win 4).blk t).view.read (Elt Ideal) (regionOut m c) := by
  have h3 : t.val % 4 = 3 := (flush0_4 t).mp hf
  obtain ⟨-, -, -, -, -, -, -, -, e0, e1⟩ := index_facts t
  show (cfg0.win 4).cut (grid0.coords t) ((dats m 0 c).after 4 t) = _
  rw [after0_4]
  refine funext fun (y : S512x1024.Idx) => ?_
  show (outsAt0 m c t.val t.isLt).1 y = regionOut m c (((cfg0.win 4).blk t).view.emb y)
  obtain ⟨p, q, rfl⟩ : ∃ (p : Fin 512) (q : Fin 1024), y = ix2 p q := ⟨y 0, y 1, eq_ix2 y⟩
  rw [out_entry m c t h3 p q]
  unfold regionOut
  have hr : ((cfg0.win 4).blk t).view.emb (ix2 p q) 0 = rowOf t p := Fin.ext (by
    show win0_4.index t (0 : Fin 2) * 512 + 1 * p.val = 512 * (t.val / 64) + p.val; rw [e0]; omega)
  have hc : ((cfg0.win 4).blk t).view.emb (ix2 p q) 1 = colOf t q := Fin.ext (by
    show win0_4.index t (1 : Fin 2) * 1024 + 1 * q.val = 1024 * (t.val / 4 % 16) + q.val; rw [e1]; omega)
  rw [hr, hc]

/-- An entry of the array is in point t's output block iff each coordinate is in the block's range. -/
theorem mem_blk (t : Fin cfg0.N) (i : S8192x16384.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v3).slice (win0_4.rect t)).set ↔ _
  rw [View.set_slice_whole, Rect.mem_set_unit]
  exact Iff.rfl

/-- Every entry is in the output block of a last-block point. -/
theorem covered (i : S8192x16384.Idx) : ∃ t : Fin cfg0.N, (cfg0.win 4).flush t = true ∧ i ∈ ((cfg0.win 4).blk t).view.set := by
  have hi0 : (i 0).val < 8192 := (i 0).isLt
  have hi1 : (i 1).val < 16384 := (i 1).isLt
  obtain ⟨n, hn⟩ : ∃ n : ℕ, n = ((i 0).val / 512 * 16 + (i 1).val / 1024) * 4 + 3 := ⟨_, rfl⟩
  have hN : n < cfg0.N := by rw [show cfg0.N = 1024 from N_0]; omega
  refine ⟨⟨n, hN⟩, (flush0_4 _).mpr (by show n % 4 = 3; omega), ?_⟩
  rw [mem_blk]
  obtain ⟨-, -, -, -, -, -, -, -, e0, e1⟩ := index_facts ⟨n, hN⟩
  intro a
  match a with
  | ⟨0, _⟩ =>
    show win0_4.index ⟨n, hN⟩ (0 : Fin 2) * 512 ≤ (i 0).val ∧ (i 0).val < win0_4.index ⟨n, hN⟩ (0 : Fin 2) * 512 + 512
    rw [e0]; show n / 64 * 512 ≤ (i 0).val ∧ (i 0).val < n / 64 * 512 + 512; omega
  | ⟨1, _⟩ =>
    show win0_4.index ⟨n, hN⟩ (1 : Fin 2) * 1024 ≤ (i 1).val ∧ (i 1).val < win0_4.index ⟨n, hN⟩ (1 : Fin 2) * 1024 + 1024
    rw [e1]; show n / 4 % 16 * 1024 ≤ (i 1).val ∧ (i 1).val < n / 4 % 16 * 1024 + 1024; omega

/-- The region's output array after the run. -/
theorem region_final (c : Dev nD) : (dats m 0 c).arrAt 4 cfg0.N = regionOut m c :=
  (dats m 0 c).arrAt_eq_of_cover 4 (regionOut m c) (flushed_eq m c) covered

end Cert.KernelIdeal.KernelValue

end
-- ==== Proof.HostLayout.lean ====
/-
  The host operations before the region re-lay the arguments, entry for entry.

  x [4, 2048, 4096] is read as [8192, 4096]: row 2048·b + s is (b, s).  The scale [16384] becomes the column
  [16384, 1] and the bias the row [1, 16384], the same entries in the same order.  The integer weights reach the region
  as they are.
-/
import proofs.«167299_j24206435680470_1_alg».proof.Proof.Blocks
import Idealize.ShloMosaic.Lib.StableHlo.Run

noncomputable section

namespace Cert.KernelIdeal.HostLayout

open Cert.KernelIdeal Cert.KernelIdeal.Gen Idealize.ShloMosaic Idealize.ShloMosaic.TcCoe Idealize.ShloMosaic.ValueIdx
open Idealize.SL.Sem Cert.KernelIdeal.Blocks

variable (m : (ℓ : Loc nD τ sig) → Buf (Elt Ideal) ℓ)

theorem V_x (c : Dev nD) : V m c main_v0
    = shapeCast S8192x4096 (m ((c : Thread nD τ).loc main_arg0)) shapeCasts_S4x2048x4096_S8192x4096 := by
  show StableHlo.after hostOps0 (fun b => m (c, b)) (Proc.devRef .tc main_v0) = _
  after_results
  rfl

theorem V_scale (c : Dev nD) : V m c main_v1
    = shapeCast S16384x1 (m ((c : Thread nD τ).loc main_arg2)) shapeCasts_S16384_S16384x1 := by
  show StableHlo.after hostOps0 (fun b => m (c, b)) (Proc.devRef .tc main_v1) = _
  after_results
  rfl

theorem V_bias (c : Dev nD) : V m c main_v2
    = shapeCast S1x16384 (m ((c : Thread nD τ).loc main_arg3)) shapeCasts_S16384_S1x16384 := by
  show StableHlo.after hostOps0 (fun b => m (c, b)) (Proc.devRef .tc main_v2) = _
  after_results
  rfl

/-- Row 2048·b + s of the re-laid x is x (b, s, ·). -/
theorem xRow_eq (c : Dev nD) (b : Fin 4) (s : Fin 2048) (r : Fin 8192) (hr : r.val = 2048 * b.val + s.val) :
    xRow m c r = fun i => (m ((c : Thread nD τ).loc main_arg0) : S4x2048x4096.Idx → EReal) (ix3 b s i) := by
  funext i
  unfold xRow
  rw [V_x]
  refine shapeCast_apply _ _ (ix2 r i) (ix3 b s i) ?_
  rw [Shape.rowMajor_val_three, Shape.rowMajor_val_two]
  show (b.val * 2048 + s.val) * 4096 + i.val = r.val * 4096 + i.val
  rw [hr]; omega

theorem wRow_eq (c : Dev nD) (o : Fin 16384) :
    wRow m c o = fun i => (m ((c : Thread nD τ).loc main_arg1) : S16384x4096.Idx → BitVec 32) (ix2 o i) := by
  funext i
  unfold wRow
  rw [V_main_arg1]

theorem scaleAt_eq (c : Dev nD) (o : Fin 16384) :
    scaleAt m c o = (m ((c : Thread nD τ).loc main_arg2) : S16384.Idx → EReal) (ix1 o) := by
  unfold scaleAt
  rw [V_scale]
  refine shapeCast_apply _ _ (ix2 o 0) (ix1 o) ?_
  rw [Shape.rowMajor_val_one, Shape.rowMajor_val_two]
  show o.val = o.val * 1 + 0
  omega

theorem biasAt_eq (c : Dev nD) (o : Fin 16384) :
    biasAt m c o = (m ((c : Thread nD τ).loc main_arg3) : S16384.Idx → EReal) (ix1 o) := by
  unfold biasAt
  rw [V_bias]
  refine shapeCast_apply _ _ (ix2 0 o) (ix1 o) ?_
  rw [Shape.rowMajor_val_one, Shape.rowMajor_val_two]
  show o.val = 0 * 16384 + o.val
  omega

end Cert.KernelIdeal.HostLayout

end
-- ==== Proof.KernelRun.lean ====
/-
  The kernel program's run, read: its result array ends at the layer function of the argument arrays.

  After the region the host reads the [8192, 16384] output back as [4, 2048, 16384]: entry (b, s, o) is entry
  (2048·b + s, o), whose row of x is x (b, s, ·) — so the result is Σ_i x (b, s, i) · (w (o, i) · scale o) + bias o.
-/
import proofs.«167299_j24206435680470_1_alg».proof.Proof.KernelValue
import proofs.«167299_j24206435680470_1_alg».proof.Proof.HostLayout

noncomputable section

namespace Cert.KernelIdeal.KernelRun

open Cert.KernelIdeal Cert.KernelIdeal.Gen Idealize.ShloMosaic Idealize.ShloMosaic.TcCoe Idealize.ShloMosaic.ValueIdx
open Idealize.SL.Sem Cert.ScaledLinear Cert.KernelIdeal.Blocks Cert.KernelIdeal.KernelValue Cert.KernelIdeal.HostLayout
open Idealize.ShloMosaic.Pipeline (Dat)

variable (m : (ℓ : Loc nD τ sig) → Buf (Elt Ideal) ℓ) (ρ : Dev nD → PrngReg)

/-- The region's output read back as [4, 2048, 16384] is the layer function of the arguments. -/
theorem relaid_eq (c : Dev nD) :
    shapeCast S4x2048x16384 (regionOut m c) shapeCasts_S8192x16384_S4x2048x16384
      = layer (m ((c : Thread nD τ).loc main_arg0)) (m ((c : Thread nD τ).loc main_arg1))
          (m ((c : Thread nD τ).loc main_arg2)) (m ((c : Thread nD τ).loc main_arg3)) := by
  funext j
  obtain ⟨b, s, o, rfl⟩ : ∃ (b : Fin 4) (s : Fin 2048) (o : Fin 16384), j = ix3 b s o := ⟨j 0, j 1, j 2, eq_ix3 j⟩
  have hr : 2048 * b.val + s.val < 8192 := by omega
  rw [shapeCast_apply (regionOut m c) shapeCasts_S8192x16384_S4x2048x16384 (ix3 b s o) (ix2 ⟨2048 * b.val + s.val, hr⟩ o) (by
    rw [Shape.rowMajor_val_three, Shape.rowMajor_val_two]
    show (2048 * b.val + s.val) * 16384 + o.val = (b.val * 2048 + s.val) * 16384 + o.val
    omega)]
  unfold regionOut layer
  show whole (xRow m c ⟨2048 * b.val + s.val, hr⟩) (wRow m c o) (scaleAt m c o) + biasAt m c o = _
  rw [xRow_eq m c b s ⟨2048 * b.val + s.val, hr⟩ rfl, wRow_eq, scaleAt_eq, biasAt_eq]

/-- The result buffer after the host operation that follows the region. -/
theorem tail_eq (c : Dev nD) :
    Pipeline.afterTail₀ cfgs (dats m) 0 (V0 m) [hostOps1] c main_v4
      = shapeCast S4x2048x16384 (regionOut m c) shapeCasts_S8192x16384_S4x2048x16384 := by
  unfold Pipeline.afterTail₀
  show StableHlo.after hostOps1 _ (Proc.devRef .tc main_v4) = _
  after_results
  rw [(Pipeline.withArrays_arr spec0 launch0.win.arr_inj c _ _ 4).trans (region_final m c)]
  rfl

/-- Every weakly fair execution of the kernel program terminates with the result at the layer function of the
    arguments and the arguments unchanged. -/
theorem run : θ_run defs (onTc (τ := τ) (main (F := Ideal))) ⟨m, fun _ => 0, ρ⟩ fun r => ∀ c : Dev nD,
      r.2.mem ((c.tc : Thread nD τ).loc main_v4)
          = layer (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans ((tail_eq m c).trans (relaid_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelRun

end
-- ==== Proof.lean ====
/-
  A linear layer with integer weights scaled per output row: the kernel against its reference, over the extended reals.

  The kernel computes x · (diag(scale) · w)ᵀ + bias over x [4·2048, 4096] and w [16384, 4096] in output blocks of
  512 × 1024, cutting the 4096 contracted columns into four blocks of 1024 that a grid axis runs over: a scratch
  accumulator is zeroed at the first block, each block adds its own contraction, and the last block writes the
  accumulator plus the bias to the output block.  The reference contracts all 4096 columns at once.  At the ideal
  values the formats' changes are the identity, the integer weights read as the same reals on both sides, and the
  four block sums added in order onto zero are the whole sum: only commutativity and associativity of + on the
  extended reals are used, so the precondition is never opened.

  The modules: Arith (the block sums make the whole sum), Layer (the result as one function of the arguments),
  RefValue (the reference's term is that function), Payload (the body's stored values at an entry), Pieces (what a run of
  the body leaves, as stored values), Blocks (where the blocks sit in the arrays), Accum (the accumulator point by
  point), KernelValue (the region's output array), HostLayout (the host's re-laid arrays), KernelRun (the kernel
  program's run).  The frames of the two kernel programs are the generated ones; the reference's frame is its
  generated run with the result dropped; the idealized kernel rewrites no operation of the kernel.
-/
import proofs.«167299_j24206435680470_1_alg».proof.Defs
import proofs.«167299_j24206435680470_1_alg».proof.Proof.Gen.Kernel
import proofs.«167299_j24206435680470_1_alg».proof.Proof.Gen.Kernel.Skeleton
import proofs.«167299_j24206435680470_1_alg».proof.Proof.Gen.Kernel.Launch
import proofs.«167299_j24206435680470_1_alg».proof.Proof.Gen.Kernel.Points
import proofs.«167299_j24206435680470_1_alg».proof.Proof.Gen.Kernel.Frame
import proofs.«167299_j24206435680470_1_alg».proof.Proof.Gen.KernelIdeal
import proofs.«167299_j24206435680470_1_alg».proof.Proof.Gen.KernelIdeal.Skeleton
import proofs.«167299_j24206435680470_1_alg».proof.Proof.Gen.KernelIdeal.Launch
import proofs.«167299_j24206435680470_1_alg».proof.Proof.Gen.KernelIdeal.Points
import proofs.«167299_j24206435680470_1_alg».proof.Proof.Gen.KernelIdeal.Frame
import proofs.«167299_j24206435680470_1_alg».proof.Proof.Gen.ReferenceIdeal
import proofs.«167299_j24206435680470_1_alg».proof.Proof.Gen.Pre_finite_inputs
import proofs.«167299_j24206435680470_1_alg».proof.Proof.Gen.ReferenceIdeal.Read
import proofs.«167299_j24206435680470_1_alg».proof.Proof.LibBlocks
import proofs.«167299_j24206435680470_1_alg».proof.Proof.RefValue
import proofs.«167299_j24206435680470_1_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the layer function of arguments that agree. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
